-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S128x768 : Shape := ⟨2, ![128, 768]⟩
abbrev S128 : Shape := ⟨1, ![128]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S128x768 : S_.BroadcastsInDim S128x768 (![] : Fin 0 → Fin S128x768.rank)
  reducesTo_S128x768_S_d0_1 : S128x768.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S32768x768 .f32) (main_arg1 : FVec F S128x768 .f32) (main_arg2 : FVec F S128 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S128x768 .f32 := Host.absf main_arg1
  let main_cst_0 : FVec F S_ .f32 := constant S_ .f32 0x7F800000#32
  let main_v5 : FVec F S128x768 .f32 := broadcastInDim S128x768 ![] bcast_S_S128x768 main_cst_0
  let main_v6 : IVec S128x768 1 := cmpf .olt main_v4 main_v5
  let main_c_1 : IVec S_ 1 := constantI S_ 1 1#1
  let main_v7 : IVec S_ 1 := (fun x v => Host.reduce IntOp.andi x v reducesTo_S128x768_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S32768x768 : Shape := ⟨2, ![32768, 768]⟩
abbrev S128x768 : Shape := ⟨2, ![128, 768]⟩
abbrev S128 : Shape := ⟨1, ![128]⟩
abbrev S32768x128 : Shape := ⟨2, ![32768, 128]⟩
abbrev S4096x768 : Shape := ⟨2, ![4096, 768]⟩
abbrev S4096x128 : Shape := ⟨2, ![4096, 128]⟩
abbrev S1x128 : Shape := ⟨2, ![1, 128]⟩

abbrev nBuf : Space → Nat
  | .hbm => 4
  | .vmem => 6
  | .smem => 0
  | _ => 0

abbrev bufTy : (tb : Table) → Fin (tcTables nBuf tb) → BufTy
  | .hbm, ⟨0, _⟩ => ⟨S32768x768, .f32⟩
  | .hbm, ⟨1, _⟩ => ⟨S128x768, .f32⟩
  | .hbm, ⟨2, _⟩ => ⟨S128, .f32⟩
  | .hbm, ⟨3, _⟩ => ⟨S32768x128, .f32⟩
  | .local _ .vmem, ⟨0, _⟩ => ⟨S4096x768, .f32⟩
  | .local _ .vmem, ⟨1, _⟩ => ⟨S4096x768, .f32⟩
  | .local _ .vmem, ⟨2, _⟩ => ⟨S128x768, .f32⟩
  | .local _ .vmem, ⟨3, _⟩ => ⟨S128, .f32⟩
  | .local _ .vmem, ⟨4, _⟩ => ⟨S4096x128, .f32⟩
  | .local _ .vmem, ⟨5, _⟩ => ⟨S4096x128, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S4096x768_S4096x768_0_0 : ∀ a, (![0, 0] : Fin 2 → Nat) a + S4096x768.size a ≤ S4096x768.size a
  h_S4096x768 : 0 < S4096x768.numel
  bitsLt_bf16_f32 : FTy.bits .bf16 < FTy.bits .f32
  inb_S128x768_S128x768_0_0 : ∀ a, (![0, 0] : Fin 2 → Nat) a + S128x768.size a ≤ S128x768.size a
  h_S128x768 : 0 < S128x768.numel
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  dot_S4096x768_S128x768_S4096x128_1_1_0_0_n_n_wf : DotDims.WF S4096x768 S128x768 S4096x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x768.size a ≤ S32768x768.size a
  hwx0_0 : ∀ i : grid0.Coords, EltTy.bits .f32 = 32 ∨ (Rect.block (s := S32768x768) S4096x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x768.size a ≤ S128x768.size a
  hwx0_1 : ∀ i : grid0.Coords, EltTy.bits .f32 = 32 ∨ (Rect.block (s := S128x768) S128x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S32768x128.size a
  hwx0_3 : ∀ i : grid0.Coords, EltTy.bits .f32 = 32 ∨ (Rect.block (s := S32768x128) S4096x128.size (cc0_transform_3 i) (hinb0_3 i)).WholeWords (EltTy.packing .f32)

variable [Facts₀]

def dot_S4096x768_S128x768_S4096x128_1_1_0_0_n_n : DotDims S4096x768 S128x768 S4096x128 where
  lhsContracting := [1]
  rhsContracting := [1]
  lhsNonContracting := [0]
  rhsNonContracting := [0]
  lhsBatch := []
  rhsBatch := []
  wf := dot_S4096x768_S128x768_S4096x128_1_1_0_0_n_n_wf

abbrev win0_0 : Pipeline.Window sig grid0 :=
  Pipeline.Window.ofSpec (Memref.whole main_arg0) S4096x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x768 : Shape := ⟨2, ![32768, 768]⟩
abbrev S128x768 : Shape := ⟨2, ![128, 768]⟩
abbrev S128 : Shape := ⟨1, ![128]⟩
abbrev S768x128 : Shape := ⟨2, ![768, 128]⟩
abbrev S1x128 : Shape := ⟨2, ![1, 128]⟩
abbrev S32768x128 : Shape := ⟨2, ![32768, 128]⟩
abbrev S2624x768 : Shape := ⟨2, ![2624, 768]⟩
abbrev S2624x128 : Shape := ⟨2, ![2624, 128]⟩

abbrev nBuf : Space → Nat
  | .hbm => 6
  | .vmem => 6
  | .smem => 0
  | _ => 0

abbrev bufTy : (tb : Table) → Fin (tcTables nBuf tb) → BufTy
  | .hbm, ⟨0, _⟩ => ⟨S32768x768, .f32⟩
  | .hbm, ⟨1, _⟩ => ⟨S128x768, .f32⟩
  | .hbm, ⟨2, _⟩ => ⟨S128, .f32⟩
  | .hbm, ⟨3, _⟩ => ⟨S768x128, .f32⟩
  | .hbm, ⟨4, _⟩ => ⟨S1x128, .f32⟩
  | .hbm, ⟨5, _⟩ => ⟨S32768x128, .f32⟩
  | .local _ .vmem, ⟨0, _⟩ => ⟨S2624x768, .f32⟩
  | .local _ .vmem, ⟨1, _⟩ => ⟨S2624x768, .f32⟩
  | .local _ .vmem, ⟨2, _⟩ => ⟨S768x128, .f32⟩
  | .local _ .vmem, ⟨3, _⟩ => ⟨S1x128, .f32⟩
  | .local _ .vmem, ⟨4, _⟩ => ⟨S2624x128, .f32⟩
  | .local _ .vmem, ⟨5, _⟩ => ⟨S2624x128, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2624x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2624x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S128x768_S768x128_1_0 : S128x768.Transposes [1, 0] S768x128
  shapeCasts_S128_S1x128 : S128.ShapeCasts S1x128
  inb_S2624x768_S2624x768_0_0 : ∀ a, (![0, 0] : Fin 2 → Nat) a + S2624x768.size a ≤ S2624x768.size a
  h_S2624x768 : 0 < S2624x768.numel
  inb_S768x128_S768x128_0_0 : ∀ a, (![0, 0] : Fin 2 → Nat) a + S768x128.size a ≤ S768x128.size a
  h_S768x128 : 0 < S768x128.numel
  shapeCasts_S768x128_S768x128 : S768x128.ShapeCasts S768x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2624x128 : S1x128.Broadcasts S2624x128
  inb_S2624x128_S2624x128_0_0 : ∀ a, (![0, 0] : Fin 2 → Nat) a + S2624x128.size a ≤ S2624x128.size a
  h_S2624x128 : 0 < S2624x128.numel
  dot_S2624x768_S768x128_S2624x128_1_0_0_1_n_n_wf : DotDims.WF S2624x768 S768x128 S2624x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2624x768.size a < S32768x768.size a
  hwx0_0 : ∀ i : grid0.Coords, EltTy.bits .f32 = 32 ∨ (Rect.unit (s := S32768x768) (fun a => cc0_transform_0 i a * S2624x768.size a) (fun a => (Pipeline.Clip.of (cc0_transform_0 i a) (S2624x768.size a) (S32768x768.size a)).extent (S2624x768.size a)) fun a => Pipeline.Clip.inb (Pipeline.Clip.ok_of (hstart0_0 i a))).WholeWords (EltTy.packing .f32)
  hwxs0_0 : ∀ i : grid0.Coords, EltTy.bits .f32 = 32 ∨ (Rect.unit (s := S2624x768) (fun _ => 0) (fun a => (Pipeline.Clip.of (cc0_transform_0 i a) (S2624x768.size a) (S32768x768.size a)).extent (S2624x768.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x128.size a ≤ S768x128.size a
  hwx0_1 : ∀ i : grid0.Coords, EltTy.bits .f32 = 32 ∨ (Rect.block (s := S768x128) S768x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S2624x128.size a < S32768x128.size a
  hwx0_3 : ∀ i : grid0.Coords, EltTy.bits .f32 = 32 ∨ (Rect.unit (s := S32768x128) (fun a => cc0_transform_3 i a * S2624x128.size a) (fun a => (Pipeline.Clip.of (cc0_transform_3 i a) (S2624x128.size a) (S32768x128.size a)).extent (S2624x128.size a)) fun a => Pipeline.Clip.inb (Pipeline.Clip.ok_of (hstart0_3 i a))).WholeWords (EltTy.packing .f32)
  hwxs0_3 : ∀ i : grid0.Coords, EltTy.bits .f32 = 32 ∨ (Rect.unit (s := S2624x128) (fun _ => 0) (fun a => (Pipeline.Clip.of (cc0_transform_3 i a) (S2624x128.size a) (S32768x128.size a)).extent (S2624x128.size a)) fun a => (Nat.zero_add _).trans_le (Pipeline.Clip.extent_le (Pipeline.Clip.ok_of (hstart0_3 i a)))).WholeWords (EltTy.packing .f32)

variable [Facts₀]

def dot_S2624x768_S768x128_S2624x128_1_0_0_1_n_n : DotDims S2624x768 S768x128 S2624x128 where
  lhsContracting := [1]
  rhsContracting := [0]
  lhsNonContracting := [0]
  rhsNonContracting := [1]
  lhsBatch := []
  rhsBatch := []
  wf := dot_S2624x768_S768x128_S2624x128_1_0_0_1_n_n_wf

abbrev win0_0 : Pipeline.Window sig grid0 :=
  Pipeline.Window.ofSpecClip (Memref.whole main_arg0) S2624x768.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_call0_v0) S768x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v0) S2624x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.LibLanes.lean ====
/-
  GENERAL LEMMAS: a contraction of the lanes of two matrices — (A * B^T)(p, q) = sum over k of A(p, k) * B(q, k) — read at
  an index on extended reals, in the two spellings a kernel and a host program give it. Nothing here mentions a program;
  the extents R (rows of A), N (rows of B) and K (the contracted lanes) are arbitrary.

  * idx2_ext: two rank-2 indices with the same coordinates are one index.
  * contraction_lanes: a contraction of axis 1 of an [R, K] array with axis 1 of an [N, K] array (no batch axes), read
    at (p, q), is the sum over k : Fin K of l (p, k) * r (q, k); the dimension record enters only through four coordinate
    facts about its operand indices (for a printed record: two by unfolding, two by DotDims.lhsIdx_val_of_single /
    rhsIdx_val_of_single) and the rank and extent of its contraction shape (both rfl).
  * matmul_lanes: the kernel's spelling — the matrix unit's product into a zero accumulator — at (p, q).
  * hostdot_lanes: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibLanes

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the lanes of an [N, K] array, read at (p, q): the sum over
    k of l(p, k) * r(q, k). The dimension record enters through four coordinate facts and the extent of its one
    contracted axis. -/
theorem contraction_lanes {R K N : ℕ} (d : DotDims ⟨2, ![R, K]⟩ ⟨2, ![N, K]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (i 1).val)
    (hr1 : ∀ (i : (⟨2, ![R, N]⟩ : Shape).Idx) (s : d.contr.Idx), (d.rhsIdx i s 1).val = (s ⟨0, by omega⟩).val)
    (l : (⟨2, ![R, K]⟩ : Shape).Idx → EReal) (r : (⟨2, ![N, K]⟩ : Shape).Idx → EReal) (p : Fin R) (q : Fin N) :
    ∑ s : d.contr.Idx, l (d.lhsIdx (ix2 p q) s) * r (d.rhsIdx (ix2 p q) s) = ∑ k : Fin K, l (ix2 p k) * r (ix2 q k) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 q k :=
    idx2_ext _ _ (hr0 _ _) ((hr1 _ _).trans hk)
  rw [el, er]

/-- The matrix unit's product into a zero accumulator, read at (p, q). -/
theorem matmul_lanes {R K N : ℕ} (d : DotDims ⟨2, ![R, K]⟩ ⟨2, ![N, K]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (i 1).val)
    (hr1 : ∀ (i : (⟨2, ![R, N]⟩ : Shape).Idx) (s : d.contr.Idx), (d.rhsIdx i s 1).val = (s ⟨0, by omega⟩).val)
    {φ₁ φ₂ : FTy} (l : FVec Ideal ⟨2, ![R, K]⟩ φ₁) (r : FVec Ideal ⟨2, ![N, K]⟩ φ₂) (p : Fin R) (q : Fin N) :
    matmul d none l r (constant (F := Ideal) ⟨2, ![R, N]⟩ .f32 0x00000000#32) (ix2 p q)
      = ∑ k : Fin K, l (ix2 p k) * r (ix2 q k) :=
  (Ideal.matmul_constant_zero_apply d none l r (ix2 p q)).trans
    (contraction_lanes d hrank hsize hl0 hl1 hr0 hr1 l r p q)

/-- The host's dot_general, read at (p, q). -/
theorem hostdot_lanes {R K N : ℕ} (d : DotDims ⟨2, ![R, K]⟩ ⟨2, ![N, K]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (i 1).val)
    (hr1 : ∀ (i : (⟨2, ![R, N]⟩ : Shape).Idx) (s : d.contr.Idx), (d.rhsIdx i s 1).val = (s ⟨0, by omega⟩).val)
    (l : FVec Ideal ⟨2, ![R, K]⟩ .f32) (r : FVec Ideal ⟨2, ![N, K]⟩ .f32) (p : Fin R) (q : Fin N) :
    Host.dotGeneral d none l r (ix2 p q) = ∑ k : Fin K, l (ix2 p k) * r (ix2 q k) :=
  (Ideal.dotGeneral_apply d none .single l r (ix2 p q)).trans
    (contraction_lanes d hrank hsize hl0 hl1 hr0 hr1 l r p q)

end Cert.LibLanes

end
-- ==== Proof.KernelStored.lean ====
/-
  The kernel's one stored value read at an element. A grid step holds 4096 rows of the activations x, the whole
  weight matrix w (128 label rows of 768 features) and the 128 biases b, and stores
      (x . w^T)(p, q) + b(q) = (sum over the 768 features k of x(p, k) * w(q, k)) + b(q)
  for row p of the step and label q. On extended reals the roundings to bf16 before the product are the identity,
  the product into a zero accumulator is the plain sum over k, and the bias row — the vector cast to one row and
  that row repeated down the 4096 rows — reads b(q) at every row. No law of arithmetic is used: each side is the
  same sum of the same products in the same order.
-/
import proofs.«110112_g2000102687045169_pallasbulk_887_14_alg».proof.Proof.Gen.KernelIdeal.Skeleton
import proofs.«110112_g2000102687045169_pallasbulk_887_14_alg».proof.Proof.LibLanes
import Idealize.ShloMosaic.Lib.ValueIdx
import Idealize.ShloMosaic.Lib.ValueLayout
import Idealize.ShloMosaic.Lib.Pipeline.Value
import Idealize.ShloMosaic.PureOps.Ideal.Laws

noncomputable section

namespace Cert.HeadKernel

open Idealize.ShloMosaic Idealize.ShloMosaic.ValueIdx Cert.KernelIdeal Cert.KernelIdeal.Gen
open scoped BigOperators

/-- The stored value at row p of the step and label q: the sum over the features of x(p, k) * w(q, k), plus b(q). -/
theorem stored_apply (x : Vec Ideal S4096x768 .f32) (w : Vec Ideal S128x768 .f32) (b : Vec Ideal S128 .f32)
    (p : Fin 4096) (q : Fin 128) :
    k0_pay1 (F := Ideal) x w b (ix2 p q) = (∑ k : Fin 768, x (ix2 p k) * w (ix2 q k)) + b (ix1 q) := by
  unfold k0_pay1
  refine congrArg₂ (· + ·) ?_ ?_
  · exact Cert.LibLanes.matmul_lanes dot_S4096x768_S128x768_S4096x128_1_1_0_0_n_n rfl rfl
      (fun i s => rfl) (fun i s => DotDims.lhsIdx_val_of_single _ rfl i s)
      (fun i s => rfl) (fun i s => DotDims.rhsIdx_val_of_single _ rfl i s) _ _ p q
  · exact (broadcastTo_1b_ab_apply _ _ p q).trans (shapeCast_a_1a_apply b _ 0 q)

end Cert.HeadKernel

end
-- ==== Proof.HeadSpec.lean ====
/-
  The function both programs compute: the logits of a linear classification head,
      logits(r, l) = (sum over the 768 features k of x(r, k) * w(l, k)) + b(l),
  for each of the 32768 rows r of the activations x and each of the 128 labels l, with w the weight matrix stored one
  label per row and b the bias vector, over extended reals. It mentions no program: the two proofs that follow show
  that each program's result array is this function of the argument arrays.
-/
import Idealize.ShloMosaic.PureOps.Ideal
import Idealize.ShloMosaic.Lib.ValueIdx

noncomputable section

namespace Cert.HeadSpec

open Idealize.ShloMosaic Idealize.ShloMosaic.ValueIdx
open scoped BigOperators

/-- One logit: row r of x against row l of w, summed over the features in their order, plus b(l). -/
def logit (x : (⟨2, ![32768, 768]⟩ : Shape).Idx → EReal) (w : (⟨2, ![128, 768]⟩ : Shape).Idx → EReal)
    (b : (⟨1, ![128]⟩ : Shape).Idx → EReal) (r : Fin 32768) (l : Fin 128) : EReal :=
  (∑ k : Fin 768, x (ix2 r k) * w (ix2 l k)) + b (ix1 l)

/-- The whole [32768, 128] array of logits. -/
def logits (x : (⟨2, ![32768, 768]⟩ : Shape).Idx → EReal) (w : (⟨2, ![128, 768]⟩ : Shape).Idx → EReal)
    (b : (⟨1, ![128]⟩ : Shape).Idx → EReal) : (⟨2, ![32768, 128]⟩ : Shape).Idx → EReal :=
  fun i => logit x w b (i 0) (i 1)

end Cert.HeadSpec

end
-- ==== Proof.KernelValue.lean ====
/-
  The kernel's result array as one function of the argument arrays. The grid has 8 steps; step t stages rows
  4096 t .. 4096 t + 4095 of the activations, the whole weight matrix and the whole bias vector, and writes back the
  4096 x 128 block of results for those rows. Each stored element is the logit of its row and label (the stored value
  read at an element, with the staged blocks read back as elements of the argument arrays), so what step t writes back
  is block t of the array of logits; the 8 blocks tile the 32768 rows, so the result array ends holding the logits.
-/
import proofs.«110112_g2000102687045169_pallasbulk_887_14_alg».proof.Proof.Gen.KernelIdeal.Value
import proofs.«110112_g2000102687045169_pallasbulk_887_14_alg».proof.Proof.KernelStored
import proofs.«110112_g2000102687045169_pallasbulk_887_14_alg».proof.Proof.HeadSpec

noncomputable section

namespace Cert.HeadKernel

open Idealize.ShloMosaic Idealize.ShloMosaic.TcCoe Idealize.SL.Sem Idealize.ShloMosaic.ValueIdx
open Cert.KernelIdeal Cert.KernelIdeal.Gen
open Idealize.ShloMosaic.Pipeline (Dat)
open scoped BigOperators

variable (m : (ℓ : Loc nD τ sig) → Buf (Elt Ideal) ℓ) (ρ : Dev nD → PrngReg)

theorem off2 : (![0, 0] : Fin 2 → Nat) = fun _ => 0 := funext fun a => by fin_cases a <;> rfl
theorem off1 : (![0] : Fin 1 → Nat) = fun _ => 0 := funext fun a => by fin_cases a; rfl

/-- The stored value at an element of the step's block, when the staged rows are rows of whole arrays X, W, B:
    the logit of the array row r that block row p holds and the label l that block column q holds. -/
theorem stored_logit (x : Vec Ideal S4096x768 .f32) (w : Vec Ideal S128x768 .f32) (b : Vec Ideal S128 .f32)
    (X : S32768x768.Idx → EReal) (W : S128x768.Idx → EReal) (B : S128.Idx → EReal)
    (y : S4096x128.Idx) (p : Fin 4096) (q : Fin 128) (hp : (y 0).val = p.val) (hq : (y 1).val = q.val)
    (r : Fin 32768) (l : Fin 128)
    (hx : ∀ k : Fin 768, x (ix2 p k) = X (ix2 r k)) (hw : ∀ k : Fin 768, w (ix2 q k) = W (ix2 l k))
    (hb : b (ix1 q) = B (ix1 l)) :
    k0_pay1 (F := Ideal) x w b y = Cert.HeadSpec.logit X W B r l := by
  have hy : y = ix2 p q := Cert.LibLanes.idx2_ext _ _ hp hq
  rw [hy, stored_apply]
  unfold Cert.HeadSpec.logit
  rw [hb]
  exact congrArg (· + B (ix1 l)) (Finset.sum_congr rfl fun k _ => by rw [hx k, hw k])

/-- The printed index maps over the 8 steps: the activations and the result move with the step along the rows; the
    weights and the bias stay. -/
theorem index_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- What step t writes back is block t of the logits of the argument arrays. -/
theorem flushed_logits (c : Dev nD) (t : Fin cfg0.N) :
    (dats m 0 c).flushed 3 t = ((cfg0.win 3).blk t).view.read (Elt Ideal)
      (Cert.HeadSpec.logits (V m c main_arg0) (V m c main_arg1) (V m c main_arg2)) := by
  rw [Cert.KernelIdeal.Value.flushed3]
  unfold out0_3
  rw [View.canon_unit_zero off2]
  simp only [View.ld_unit_zero (S := S4096x768) off2, View.ld_unit_zero (S := S128x768) off2, View.ld_unit_zero (S := S128) off1]
  obtain ⟨e00, e01, e10, e11, e20, e30, e31⟩ := index_facts t
  funext j
  have hj0 : (j 0).val < 4096 := (j 0).isLt
  have hj1 : (j 1).val < 128 := (j 1).isLt
  show k0_pay1 (F := Ideal) (iblk m c 0 t) (iblk m c 1 t) (iblk m c 2 t) ((cfg0.win 3).xinj (grid0.coords t) j)
    = Cert.HeadSpec.logit (V m c main_arg0) (V m c main_arg1) (V m c main_arg2)
        ((((cfg0.win 3).blk t).view.emb j) 0) ((((cfg0.win 3).blk t).view.emb j) 1)
  refine stored_logit (iblk m c 0 t) (iblk m c 1 t) (iblk m c 2 t) _ _ _ _ ⟨(j 0).val, hj0⟩ ⟨(j 1).val, hj1⟩ rfl rfl _ _
    (fun k => ?_) (fun k => ?_) ?_
  · show V m c main_arg0 (((cfg0.win 0).blk t).view.emb (ix2 ⟨(j 0).val, hj0⟩ k)) = _
    refine congrArg _ (funext fun a => Fin.ext ?_)
    match a with
    | ⟨0, _⟩ =>
      show win0_0.index t (0 : Fin 2) * 4096 + 1 * (j 0).val = win0_3.index t (0 : Fin 2) * 4096 + 1 * (j 0).val
      rw [e00, e30]
    | ⟨1, _⟩ =>
      show win0_0.index t (1 : Fin 2) * 768 + 1 * k.val = k.val
      rw [e01]; omega
  · show V m c main_arg1 (((cfg0.win 1).blk t).view.emb (ix2 ⟨(j 1).val, hj1⟩ k)) = _
    refine congrArg _ (funext fun a => Fin.ext ?_)
    match a with
    | ⟨0, _⟩ =>
      show win0_1.index t (0 : Fin 2) * 128 + 1 * (j 1).val = win0_3.index t (1 : Fin 2) * 128 + 1 * (j 1).val
      rw [e10, e31]
    | ⟨1, _⟩ =>
      show win0_1.index t (1 : Fin 2) * 768 + 1 * k.val = k.val
      rw [e11]; omega
  · show V m c main_arg2 (((cfg0.win 2).blk t).view.emb (ix1 ⟨(j 1).val, hj1⟩)) = _
    refine congrArg _ (funext fun a => Fin.ext ?_)
    match a with
    | ⟨0, _⟩ =>
      show win0_2.index t (0 : Fin 1) * 128 + 1 * (j 1).val = win0_3.index t (1 : Fin 2) * 128 + 1 * (j 1).val
      rw [e20, e31]

/-- An index of the result array lies in step t's block iff each coordinate lies in the block's range. -/
theorem mem_block (t : Fin cfg0.N) (i : S32768x128.Idx) :
    i ∈ ((cfg0.win 3).blk t).view.set ↔ ∀ a : Fin 2, win0_3.index t a * S4096x128.size a ≤ (i a).val
      ∧ (i a).val < win0_3.index t a * S4096x128.size a + S4096x128.size a := by
  show i ∈ ((View.whole main_v0).slice (win0_3.rect t)).set ↔ _
  rw [View.set_slice_whole, Rect.mem_set_unit]
  exact Iff.rfl

/-- Every row of the result is in some step's block: row r is in the block of step r / 4096. -/
theorem covered (i : S32768x128.Idx) :
    ∃ t : Fin cfg0.N, (cfg0.win 3).flush t = true ∧ i ∈ ((cfg0.win 3).blk t).view.set := by
  have hi0 : (i 0).val < 32768 := (i 0).isLt
  have hi1 : (i 1).val < 128 := (i 1).isLt
  have hN : cfg0.N = 8 := N_0
  refine ⟨⟨(i 0).val / 4096, by rw [hN]; omega⟩, flush0_3 _, ?_⟩
  rw [mem_block]
  obtain ⟨-, -, -, -, -, e30, e31⟩ := index_facts ⟨(i 0).val / 4096, by rw [hN]; omega⟩
  intro a
  match a with
  | ⟨0, _⟩ =>
    show win0_3.index _ (0 : Fin 2) * 4096 ≤ (i 0).val ∧ (i 0).val < win0_3.index _ (0 : Fin 2) * 4096 + 4096
    rw [e30]; show (i 0).val / 4096 * 4096 ≤ (i 0).val ∧ (i 0).val < (i 0).val / 4096 * 4096 + 4096; omega
  | ⟨1, _⟩ =>
    show win0_3.index _ (1 : Fin 2) * 128 ≤ (i 1).val ∧ (i 1).val < win0_3.index _ (1 : Fin 2) * 128 + 128
    rw [e31]; omega

/-- The result array after the run is the array of logits of the argument arrays. -/
theorem final_logits (c : Dev nD) :
    (dats m 0 c).arrAt 3 cfg0.N = Cert.HeadSpec.logits (m ((c : Thread nD τ).loc main_arg0))
      (m ((c : Thread nD τ).loc main_arg1)) (m ((c : Thread nD τ).loc main_arg2)) :=
  (dats m 0 c).arrAt_eq_of_cover 3 _ (fun t _ => flushed_logits m c t) covered

/-- The kernel's run: it terminates, the result array holds the logits of the arguments, the arguments are unchanged. -/
theorem run : θ_run defs (onTc (τ := τ) (main (F := Ideal))) ⟨m, fun _ => 0, ρ⟩ fun r => ∀ c : Dev nD,
      r.2.mem ((c : Thread nD τ).loc main_v0) = Cert.HeadSpec.logits (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_logits m c), (h c).2⟩)
    (Cert.KernelIdeal.Value.run_blocks m ρ)

end Cert.HeadKernel

end
-- ==== Proof.RefStep.lean ====
/-
  One step of the reference's kernel, as a statement about its four staging buffers: the step loads the whole
  activations buffer, the whole transposed-weights buffer and the whole bias-row buffer, and overwrites the whole result
  buffer with the stored value computed from the three loads; the three input buffers are left as they were. Nothing
  here depends on what the buffers hold — in particular not on the rows of the activations buffer that lie past the end of
  the array at the last step.
-/
import proofs.«110112_g2000102687045169_pallasbulk_887_14_alg».proof.Proof.Gen.ReferenceIdeal.Launch
import proofs.«110112_g2000102687045169_pallasbulk_887_14_alg».proof.Proof.Gen.ReferenceIdeal.Skeleton
import proofs.«110112_g2000102687045169_pallasbulk_887_14_alg».proof.Proof.Gen.ReferenceIdeal.Points
import Idealize.ShloMosaic.Lib.Pipeline.FrameBody
import Idealize.ShloMosaic.Lib.Ring
import Idealize.ShloMosaic.Lib.Tactic

noncomputable section

set_option maxRecDepth 16384

namespace Cert.HeadRef

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four whole-buffer rectangles the step loads and stores through. -/
abbrev rX : Rect S2624x768 := Rect.unit (s := S2624x768) ![0, 0] S2624x768.size inb_S2624x768_S2624x768_0_0
abbrev rW : Rect S768x128 := Rect.unit (s := S768x128) ![0, 0] S768x128.size inb_S768x128_S768x128_0_0
abbrev rB : Rect S1x128 := Rect.unit (s := S1x128) ![0, 0] S1x128.size inb_S1x128_S1x128_0_0
abbrev rO : Rect S2624x128 := Rect.unit (s := S2624x128) ![0, 0] S2624x128.size inb_S2624x128_S2624x128_0_0

/-- The result buffer after the step, from what the three input buffers hold: its one whole store. -/
def stepOut (x0 : Vec F S2624x768 .f32) (x1 : Vec F S768x128 .f32) (x2 : Vec F S1x128 .f32) : Vec F S2624x128 .f32 :=
  View.canon [⟨rO, k0_pay1 (View.ld x0 rX) (View.ld x1 rW) (View.ld x2 rB)⟩]

/-- The one store covers the result buffer. -/
theorem stepOut_cover (p0 : Vec F S2624x128 .f32) (y : S2624x128.Idx) :
    ∃ pc ∈ ([⟨rO, p0⟩] : List (View.Piece (Elt F) S2624x128 .f32)), y ∈ pc.1.set :=
  View.cover_of_tiled [⟨rO, p0⟩] S2624x128.size (by rfl) y

set_option maxHeartbeats 1000000 in
/-- The step on whole staging memrefs: the inputs' at contents x0, x1, x2 and the result's at anything; it ends with the
    inputs' as they were and the result's at the step's output. -/
theorem sound_step (c : Dev nD) (E : Set ℕ) (i : grid0.Coords) (arg1 : Memref sig .tc .vmem S2624x768 .f32) (harg1 : arg1.IsWhole) (arg2 : Memref sig .tc .vmem S768x128 .f32) (harg2 : arg2.IsWhole) (arg3 : Memref sig .tc .vmem S1x128 .f32) (harg3 : arg3.IsWhole) (arg4 : Memref sig .tc .vmem S2624x128 .f32) (harg4 : arg4.IsWhole)
    (x0 : Vec F S2624x768 .f32) (x1 : Vec F S768x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (stepOut x0 x1 x2)) -∗ K ⟨⟩))
      ⊢ wp frame (wpE (defs₀ (F := F)) Variants.none c none) E (cc0__head_kernel_eval i arg1 harg1 arg2 harg2 arg3 harg3 arg4 harg4) K := by
  simp only [cc0__head_kernel_eval_eq_skeleton]; unfold cc0__head_kernel_eval_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stepOut_cover _)

end Cert.HeadRef

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.RefStored.lean ====
/-
  The reference kernel's one stored value read at an element. A grid step holds 2624 rows of the activations x, the
  transposed weight matrix v (768 features by 128 labels) and the bias as one row b of 128, and stores
      (x . v)(p, q) + b(0, q) = (sum over the 768 features k of x(p, k) * v(k, q)) + b(0, q)
  for row p of the step and label q: the product into a zero accumulator is the plain sum over k, the casts of a shape to
  itself are the identity, and the bias row repeated down the rows reads b(0, q) at every row.
-/
import proofs.«110112_g2000102687045169_pallasbulk_887_14_alg».proof.Proof.Gen.ReferenceIdeal.Skeleton
import proofs.«110112_g2000102687045169_pallasbulk_887_14_alg».proof.Proof.LibMatmulRows
import proofs.«110112_g2000102687045169_pallasbulk_887_14_alg».proof.Proof.HeadSpec
import Idealize.ShloMosaic.Lib.ValueIdx
import Idealize.ShloMosaic.Lib.ValueLayout
import Idealize.ShloMosaic.Lib.Pipeline.Value
import Idealize.ShloMosaic.PureOps.Ideal.Laws

noncomputable section

namespace Cert.HeadRef

open Idealize.ShloMosaic Idealize.ShloMosaic.ValueIdx Cert.ReferenceIdeal Cert.ReferenceIdeal.Gen
open scoped BigOperators

/-- The stored value at row p of the step and label q: the sum over the features of x(p, k) * v(k, q), plus b(0, q). -/
theorem stored_apply (x : Vec Ideal S2624x768 .f32) (v : Vec Ideal S768x128 .f32) (b : Vec Ideal S1x128 .f32)
    (p : Fin 2624) (q : Fin 128) :
    k0_pay1 (F := Ideal) x v b (ix2 p q) = (∑ k : Fin 768, x (ix2 p k) * v (ix2 k q)) + b (ix2 (0 : Fin 1) q) := by
  unfold k0_pay1
  simp only [shapeCast_self]
  refine congrArg₂ (· + ·) ?_ ?_
  · exact Cert.LibMatmulRows.matmul_rows dot_S2624x768_S768x128_S2624x128_1_0_0_1_n_n rfl rfl
      (fun i s => rfl) (fun i s => DotDims.lhsIdx_val_of_single _ rfl i s)
      (fun i s => DotDims.rhsIdx_val_of_single _ rfl i s) (fun i s => rfl) _ _ p q
  · exact broadcastTo_1b_ab_apply _ _ p q

/-- The stored value at an element of the step's block, when the staged rows are rows of whole arrays: x holds in its
    row p the row r of the activations X, v holds in its column q the row l of the weights W (v is W transposed), and
    the bias row holds at q the bias B(l). Then the stored value is the logit of row r and label l. -/
theorem stored_logit (x : Vec Ideal S2624x768 .f32) (v : Vec Ideal S768x128 .f32) (b : Vec Ideal S1x128 .f32)
    (X : S32768x768.Idx → EReal) (W : S128x768.Idx → EReal) (B : S128.Idx → EReal)
    (y : S2624x128.Idx) (p : Fin 2624) (q : Fin 128) (hp : (y 0).val = p.val) (hq : (y 1).val = q.val)
    (r : Fin 32768) (l : Fin 128)
    (hx : ∀ k : Fin 768, x (ix2 p k) = X (ix2 r k)) (hv : ∀ k : Fin 768, v (ix2 k q) = W (ix2 l k))
    (hb : b (ix2 (0 : Fin 1) q) = B (ix1 l)) :
    k0_pay1 (F := Ideal) x v b y = Cert.HeadSpec.logit X W B r l := by
  have hy : y = ix2 p q := Cert.LibMatmulRows.idx2_ext _ _ hp hq
  rw [hy, stored_apply]
  unfold Cert.HeadSpec.logit
  rw [hb]
  exact congrArg (· + B (ix1 l)) (Finset.sum_congr rfl fun k _ => by rw [hx k, hv k])

end Cert.HeadRef

end
-- ==== Proof.RefEntry.lean ====
/-
  What the reference's kernel finds in its operand arrays. Before the kernel is launched the host transposes the weight
  matrix (128 labels by 768 features) into 768 features by 128 labels and lays the 128 biases out as one row of 128; the
  activations are passed as they are. Read at an element: the transposed weights at (k, l) are w(l, k), and the bias
  row at (0, l) is b(l).
-/
import proofs.«110112_g2000102687045169_pallasbulk_887_14_alg».proof.Proof.Gen.ReferenceIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.HeadRef

open Idealize.ShloMosaic Idealize.ShloMosaic.TcCoe Idealize.SL.Sem Idealize.ShloMosaic.ValueIdx
open Cert.ReferenceIdeal Cert.ReferenceIdeal.Gen

variable (m : (ℓ : Loc nD τ sig) → Buf (Elt Ideal) ℓ)

/-- The kernel's second operand is the transpose of the weight matrix. -/
theorem entry_weights (c : Dev nD) :
    (V m c main_call0_v0 : S768x128.Idx → EReal)
      = transpose S768x128 [1, 0] (m ((c : Thread nD τ).loc main_arg1)) transposes_S128x768_S768x128_1_0 := by
  dsimp only [Gen.V, Gen.hostOps0]; after_results; rfl

/-- The kernel's third operand is the bias vector as one row. -/
theorem entry_bias (c : Dev nD) :
    (V m c main_call0_v1 : S1x128.Idx → EReal)
      = shapeCast S1x128 (m ((c : Thread nD τ).loc main_arg2)) shapeCasts_S128_S1x128 := by
  dsimp only [Gen.V, Gen.hostOps0]; after_results; rfl

/-- The transposed weights at (k, l) are the weights at (l, k). -/
theorem entry_weights_apply (c : Dev nD) (k : Fin 768) (l : Fin 128) :
    (V m c main_call0_v0 : S768x128.Idx → EReal) (ix2 k l) = m ((c : Thread nD τ).loc main_arg1) (ix2 l k) := by
  rw [entry_weights]; exact transpose_ix2_apply _ _ k l

/-- The bias row at (0, l) is the bias at l. -/
theorem entry_bias_apply (c : Dev nD) (l : Fin 128) :
    (V m c main_call0_v1 : S1x128.Idx → EReal) (ix2 (0 : Fin 1) l) = m ((c : Thread nD τ).loc main_arg2) (ix1 l) := by
  rw [entry_bias]; exact shapeCast_a_1a_apply _ _ 0 l

end Cert.HeadRef

end
-- ==== Proof.RefData.lean ====
/-
  The reference's kernel over its grid of 13 steps. Step t stages rows 2624 t .. of the activations — 2624 of them,
  except at the last step, where only the 1280 rows left before the array's end are fetched and the rest of the buffer
  holds words nothing names —, the whole transposed weights and the whole bias row, and writes back the leading rows of
  its 2624 x 128 result buffer: all of them, or at the last step the first 1280.

  Row p of a step's result depends only on row p of the activations buffer. So whatever the buffer's unnamed tail
  holds, the rows the step writes back are the logits of the array rows it fetched: that is the step's part of the
  array of logits. The proof data below says exactly this much about each step — the activations buffer and the result
  buffer are described on the rows their transfers move and nowhere else — and the step's statement is discharged from
  the stored value read at an element.
-/
import proofs.«110112_g2000102687045169_pallasbulk_887_14_alg».proof.Proof.Gen.ReferenceIdeal.Frame
import proofs.«110112_g2000102687045169_pallasbulk_887_14_alg».proof.Proof.RefStep
import proofs.«110112_g2000102687045169_pallasbulk_887_14_alg».proof.Proof.RefStored
import proofs.«110112_g2000102687045169_pallasbulk_887_14_alg».proof.Proof.RefEntry
import proofs.«110112_g2000102687045169_pallasbulk_887_14_alg».proof.Proof.HeadSpec

noncomputable section

set_option maxRecDepth 16384

namespace Cert.HeadRef

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

theorem off2 : (![0, 0] : Fin 2 → Nat) = fun _ => 0 := funext fun a => by fin_cases a <;> rfl

/-- The array of logits of the argument arrays as launched. -/
abbrev target (c : Dev nD) : S32768x128.Idx → EReal :=
  Cert.HeadSpec.logits (m ((c : Thread nD τ).loc main_arg0)) (m ((c : Thread nD τ).loc main_arg1)) (m ((c : Thread nD τ).loc main_arg2))

/-- The activations buffer after step t, on the rows the fetch moved: the rows of the array; zero elsewhere (a
    filler nothing reads). -/
def keptX (c : Dev nD) (t : Fin cfg0.N) : S2624x768.Idx → Elt Ideal .f32 :=
  win0_0.fill (grid0.coords t) (fun _ => Scalar.ofBits (F := Ideal) .f32 0#32) (iblk m c 0 t)

/-- The result buffer after step t, on the rows the write-back moves: the step's part of the logits; zero elsewhere. -/
def leftO (c : Dev nD) (t : Fin cfg0.N) : S2624x128.Idx → Elt Ideal .f32 :=
  win0_3.fill (grid0.coords t) (fun _ => Scalar.ofBits (F := Ideal) .f32 0#32) ((win0_3.blk t).view.read (Elt Ideal) (target m c))

/-- The proof data of the one pipeline on core c. -/
def dats (_ : Fin 1) (c : Dev nD) : Dat τ (Elt Ideal) Unit ℕ (UR sig nD τ) ℕ cfg0 c where
  A w := V m c (Pipeline.arrRef spec0 w)
  after w t := match w with
    | ⟨0, _⟩ => keptX m c t
    | ⟨1, _⟩ => iblk m c 1 t
    | ⟨2, _⟩ => iblk m c 2 t
    | ⟨3, _⟩ => leftO m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = keptX m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = leftO m c t := by dsimp only [dats]

/-- The activations buffer when step t runs: just fetched — the array's rows on the part the fetch moved, anything elsewhere. -/
theorem before_0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk
  rw [A_eq]
/-- The weights and bias buffers hold their whole arrays at every step. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The printed index maps and transfer sizes over the 13 steps: the activations and the result move with the step
    along the rows and are cut alike; the weights and the bias stay; columns are never cut; rows are cut at the last
    step only, to the 1280 left. -/
theorem grid_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_3.xsize (grid0.coords t) (0 : Fin 2) = win0_0.xsize (grid0.coords t) (0 : Fin 2)
    ∧ win0_0.xsize (grid0.coords t) (1 : Fin 2) = 768
    ∧ win0_3.xsize (grid0.coords t) (1 : Fin 2) = 128
    ∧ (t.val < 12 → win0_3.xsize (grid0.coords t) (0 : Fin 2) = 2624)
    ∧ (t.val = 12 → win0_3.xsize (grid0.coords t) (0 : Fin 2) = 1280) :=
  (by decide +kernel : ∀ t : Fin grid0.N, _)

/-- The rows step t writes back are its part of the logits, whatever the activations buffer held past the rows fetched. -/
theorem step_block (c : Dev nD) (t : Fin cfg0.N) (d0 : S2624x768.Idx → Elt Ideal .f32) :
    win0_3.cut (grid0.coords t) (stepOut (F := Ideal) (win0_0.fill (grid0.coords t) d0 (iblk m c 0 t)) (iblk m c 1 t) (iblk m c 2 t))
      = (win0_3.blk t).view.read (Elt Ideal) (target m c) := by
  unfold stepOut
  rw [View.canon_unit_zero off2]
  simp only [View.ld_unit_zero (S := S2624x768) off2, View.ld_unit_zero (S := S768x128) off2, View.ld_unit_zero (S := S1x128) off2]
  obtain ⟨e00, e01, e10, e11, e20, e21, e30, e31, hx0, hx1, ho1, -, -⟩ := grid_facts t
  funext j
  have hj0 : (j 0).val < 2624 := Nat.lt_of_lt_of_le (j 0).isLt (win0_3.xsize_le (grid0.coords t) 0)
  have hj1 : (j 1).val < 128 := Nat.lt_of_lt_of_le (j 1).isLt (win0_3.xsize_le (grid0.coords t) 1)
  obtain ⟨r, hr⟩ : ∃ r : Fin 32768, r = ((win0_3.blk t).view.emb j) 0 := ⟨_, rfl⟩
  obtain ⟨l, hl⟩ : ∃ l : Fin 128, l = ((win0_3.blk t).view.emb j) 1 := ⟨_, rfl⟩
  have hrv : r.val = win0_3.index t (0 : Fin 2) * 2624 + 1 * (j 0).val := by rw [hr]; rfl
  have hlv : l.val = win0_3.index t (1 : Fin 2) * 128 + 1 * (j 1).val := by rw [hl]; rfl
  show k0_pay1 (F := Ideal) _ _ _ (win0_3.xinj (grid0.coords t) j)
    = Cert.HeadSpec.logit _ _ _ (((win0_3.blk t).view.emb j) 0) (((win0_3.blk t).view.emb j) 1)
  rw [← hr, ← hl]
  refine stored_logit _ _ _ _ _ _ _ ⟨(j 0).val, hj0⟩ ⟨(j 1).val, hj1⟩ rfl rfl r l (fun k => ?_) (fun k => ?_) ?_
  · -- row (j 0) of the activations buffer is a fetched row: row r of the array
    let j' : (win0_0.xblock (grid0.coords t)).Idx := fun a => match a with
      | ⟨0, _⟩ => ⟨(j 0).val, Nat.lt_of_lt_of_eq (j 0).isLt hx0⟩
      | ⟨1, _⟩ => ⟨k.val, Nat.lt_of_lt_of_eq k.isLt hx1.symm⟩
    have hjx : (ix2 ⟨(j 0).val, hj0⟩ k : S2624x768.Idx) = win0_0.xinj (grid0.coords t) j' :=
      funext fun a => Fin.ext (by match a with | ⟨0, _⟩ => rfl | ⟨1, _⟩ => rfl)
    rw [hjx, win0_0.fill_xinj]
    show V m c main_arg0 ((win0_0.blk t).view.emb j') = _
    rw [V_main_arg0]
    refine congrArg _ (funext fun a => Fin.ext ?_)
    match a with
    | ⟨0, _⟩ =>
      show win0_0.index t (0 : Fin 2) * 2624 + 1 * (j 0).val = r.val
      rw [hrv, e00, e30]
    | ⟨1, _⟩ =>
      show win0_0.index t (1 : Fin 2) * 768 + 1 * k.val = k.val
      rw [e01]; omega
  · -- column (j 1) of the transposed weights is row l of the weights
    show V m c main_call0_v0 ((win0_1.blk t).view.emb (ix2 k ⟨(j 1).val, hj1⟩)) = _
    have he : (win0_1.blk t).view.emb (ix2 k ⟨(j 1).val, hj1⟩) = (ix2 k l : S768x128.Idx) :=
      funext fun a => Fin.ext (by
        match a with
        | ⟨0, _⟩ =>
          show win0_1.index t (0 : Fin 2) * 768 + 1 * k.val = k.val
          rw [e10]; omega
        | ⟨1, _⟩ =>
          show win0_1.index t (1 : Fin 2) * 128 + 1 * (j 1).val = l.val
          rw [hlv, e11, e31])
    rw [he]; exact entry_weights_apply m c k l
  · -- the bias row at column (j 1) is the bias at l
    show V m c main_call0_v1 ((win0_2.blk t).view.emb (ix2 (0 : Fin 1) ⟨(j 1).val, hj1⟩)) = _
    have he : (win0_2.blk t).view.emb (ix2 (0 : Fin 1) ⟨(j 1).val, hj1⟩) = (ix2 (0 : Fin 1) l : S1x128.Idx) :=
      funext fun a => Fin.ext (by
        match a with
        | ⟨0, _⟩ =>
          show win0_2.index t (0 : Fin 2) * 1 + 1 * 0 = 0
          rw [e20]
        | ⟨1, _⟩ =>
          show win0_2.index t (1 : Fin 2) * 128 + 1 * (j 1).val = l.val
          rw [hlv, e21, e31])
    rw [he]; exact entry_bias_apply m c l

/-! ## The step's obligation -/

/-- What step t is called with, -/
def stepPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the activations and result buffers described on the rows their transfers move. -/
def stepPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (grid0.coords t) d ((cfg0.win 0).cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare ((cfg0.win 3).fill (grid0.coords t) d ((cfg0.win 3).cut (grid0.coords t) ((dats m 0 c).after 3 t)))))

theorem sound_body (c : Dev nD) (t : Fin cfg0.N) :
    stepPre m c t ⊢ wp frame (wpE (defs₀ (F := Ideal)) Variants.none c none) Set.univ (bodyAt0 t) (fun _ => stepPost m c t) := by
  unfold stepPre stepPost bodyAt0
  simp only [before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  rw [before_0 m c t d0]
  iapply (sound_step (F := Ideal) c Set.univ (grid0.coords t) _ _ _ _ _ _ _ _ (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  have hx : win0_0.cut (grid0.coords t) (keptX m c t) = iblk m c 0 t := win0_0.cut_fill _ _ _
  have ho : win0_3.cut (grid0.coords t) (leftO m c t) = (win0_3.blk t).view.read (Elt Ideal) (target m c) := win0_3.cut_fill _ _ _
  isplitl [H0]
  · iexists d0
    change _ ⊢ owns (c : Thread nD τ) (st0_0 t) fullShare (win0_0.fill (grid0.coords t) d0 (win0_0.cut (grid0.coords t) (keptX m c t)))
    rw [hx]; try iexact H0
  isplitl [H1]; · iexact H1
  isplitl [H2]; · iexact H2
  · iexists (stepOut (F := Ideal) (win0_0.fill (grid0.coords t) d0 (iblk m c 0 t)) (iblk m c 1 t) (iblk m c 2 t))
    change _ ⊢ owns (c : Thread nD τ) (st0_3 t) fullShare (win0_3.fill (grid0.coords t) (stepOut (F := Ideal) (win0_0.fill (grid0.coords t) d0 (iblk m c 0 t)) (iblk m c 1 t) (iblk m c 2 t)) (win0_3.cut (grid0.coords t) (leftO m c t)))
    rw [ho, ← step_block m c t d0, win0_3.fill_cut]; try iexact H3

/-- The obligation the run asks of the step, at every point of the grid. -/
theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of the reference terminates; every array the kernel stages ends at what the proof data
    computes, every other unscoped buffer as the kernel found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

end Cert.HeadRef

end
-- ==== Proof.RefValue.lean ====
/-
  The reference's result array as one function of the argument arrays. What step t writes back is its part of the
  array of logits — rows 2624 t .. 2624 t + 2623, or at the last step rows 31488 .. 32767 — and every row of the result lies
  in the part of exactly the step (row / 2624): rows below 31488 in a full block, the last 1280 in the cut one. So after
  the run the result array holds the logits of the argument arrays as launched, and the arguments are unchanged.
-/
import proofs.«110112_g2000102687045169_pallasbulk_887_14_alg».proof.Proof.RefData
import Idealize.ShloMosaic.Lib.Pipeline.Value

noncomputable section

set_option maxRecDepth 16384

namespace Cert.HeadRef

open Cert.ReferenceIdeal Cert.ReferenceIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- What step t writes back is its part of the logits. -/
theorem flushed_logits (c : Dev nD) (t : Fin cfg0.N) :
    (dats m 0 c).flushed 3 t = ((cfg0.win 3).blk t).view.read (Elt Ideal) (target m c) := by
  show (cfg0.win 3).cut (grid0.coords t) ((dats m 0 c).after 3 t) = _
  rw [after_3]
  exact win0_3.cut_fill _ _ _

/-- An index of the result array lies in step t's part iff its row is among the rows the step writes back (every
    label is: the parts span the 128 columns). -/
theorem mem_block (t : Fin cfg0.N) (i : S32768x128.Idx) :
    i ∈ ((cfg0.win 3).blk t).view.set ↔ ∀ a : Fin 2, win0_3.index t a * S2624x128.size a ≤ (i a).val
      ∧ (i a).val < win0_3.index t a * S2624x128.size a + win0_3.xsize (grid0.coords t) a := by
  show i ∈ ((View.whole main_v0).slice (win0_3.rect t)).set ↔ _
  rw [View.set_slice_whole, Rect.mem_set_unit]
  exact Iff.rfl

/-- Every row of the result is written back by some step: row r by step r / 2624. -/
theorem covered (i : S32768x128.Idx) :
    ∃ t : Fin cfg0.N, (cfg0.win 3).flush t = true ∧ i ∈ ((cfg0.win 3).blk t).view.set := by
  have hi0 : (i 0).val < 32768 := (i 0).isLt
  have hi1 : (i 1).val < 128 := (i 1).isLt
  have hN : cfg0.N = 13 := N_0
  have hlt : (i 0).val / 2624 < cfg0.N := by rw [hN]; omega
  refine ⟨⟨(i 0).val / 2624, hlt⟩, flush0_3 _, ?_⟩
  rw [mem_block]
  obtain ⟨-, -, -, -, -, -, e30, e31, -, -, ho1, hfull, hlast⟩ := grid_facts ⟨(i 0).val / 2624, hlt⟩
  intro a
  match a with
  | ⟨0, _⟩ =>
    show win0_3.index _ (0 : Fin 2) * 2624 ≤ (i 0).val ∧ (i 0).val < win0_3.index _ (0 : Fin 2) * 2624 + win0_3.xsize _ (0 : Fin 2)
    rw [e30]
    show (i 0).val / 2624 * 2624 ≤ (i 0).val ∧ (i 0).val < (i 0).val / 2624 * 2624 + win0_3.xsize _ (0 : Fin 2)
    by_cases h12 : (i 0).val / 2624 < 12
    · rw [hfull h12]; omega
    · have h12' : (i 0).val / 2624 = 12 := by omega
      rw [hlast h12']; omega
  | ⟨1, _⟩ =>
    show win0_3.index _ (1 : Fin 2) * 128 ≤ (i 1).val ∧ (i 1).val < win0_3.index _ (1 : Fin 2) * 128 + win0_3.xsize _ (1 : Fin 2)
    rw [e31, ho1]; omega

/-- The result array after the run is the array of logits of the argument arrays. -/
theorem final_logits (c : Dev nD) : (dats m 0 c).arrAt 3 cfg0.N = target m c :=
  (dats m 0 c).arrAt_eq_of_cover 3 _ (fun t _ => flushed_logits m c t) covered

/-- The reference's run: it terminates, the result array holds the logits of the arguments, the arguments are unchanged. -/
theorem run : θ_run defs (onTc (τ := τ) (main (F := Ideal))) ⟨m, fun _ => 0, ρ⟩ fun r => ∀ c : Dev nD,
      r.2.mem ((c : Thread nD τ).loc main_v0) = Cert.HeadSpec.logits (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final_logits m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.HeadRef

end
-- ==== Proof.lean ====
/-
  Both programs compute the logits of a linear classification head: for each of the 32768 rows r of the activations x
  and each of the 128 labels l,
      logits(r, l) = (sum over the 768 features k of x(r, k) * w(l, k)) + b(l).
  The kernel contracts each block of 4096 rows of x with the weight matrix in its own layout (a contraction of the two
  feature axes) over a grid of 8 steps; the reference first transposes the weights on the host, then multiplies blocks
  of 2624 rows by the transposed matrix over a grid of 13 steps, the last of which is cut to the 1280 rows left before the
  array's end. On extended reals a rounding to bf16 is the identity and either product is the same sum, over the
  features in their order, of the same products x(r, k) * w(l, k); no law of arithmetic that needs finite values is used,
  so the precondition is never opened.

  The kernel's frames are the generated ones. The reference's kernel has clipped edge blocks, so its run is proved from a
  description of each step on the rows its transfers move; the reference's frame is that run with the result dropped.
  The kernel's idealization rewrote nothing.
-/
import proofs.«110112_g2000102687045169_pallasbulk_887_14_alg».proof.Defs
import proofs.«110112_g2000102687045169_pallasbulk_887_14_alg».proof.Proof.Gen.Kernel
import proofs.«110112_g2000102687045169_pallasbulk_887_14_alg».proof.Proof.Gen.Kernel.Frame
import proofs.«110112_g2000102687045169_pallasbulk_887_14_alg».proof.Proof.Gen.KernelIdeal
import proofs.«110112_g2000102687045169_pallasbulk_887_14_alg».proof.Proof.Gen.KernelIdeal.Frame
import proofs.«110112_g2000102687045169_pallasbulk_887_14_alg».proof.Proof.Gen.KernelIdeal.Value
import proofs.«110112_g2000102687045169_pallasbulk_887_14_alg».proof.Proof.Gen.ReferenceIdeal
import proofs.«110112_g2000102687045169_pallasbulk_887_14_alg».proof.Proof.Gen.ReferenceIdeal.Frame
import proofs.«110112_g2000102687045169_pallasbulk_887_14_alg».proof.Proof.Gen.Pre_finite_inputs
import proofs.«110112_g2000102687045169_pallasbulk_887_14_alg».proof.Proof.KernelValue
import proofs.«110112_g2000102687045169_pallasbulk_887_14_alg».proof.Proof.RefValue
import Idealize.ShloMosaic.Adequacy
import Idealize.ShloMosaic.Init

noncomputable section

namespace Cert.Proof

open Idealize.ShloMosaic Idealize.SL.Sem

namespace Claims

theorem frame_kernel : Cert.frame_Kernel := fun m ρ _ => Cert.Kernel.Gen.frame m ρ

theorem frame_kernelIdeal : Cert.frame_KernelIdeal := fun m ρ _ => Cert.KernelIdeal.Gen.frame m ρ

/-- The reference runs and leaves its arguments unchanged: its run to the logits, the result dropped. -/
theorem frame_referenceIdeal : Cert.frame_ReferenceIdeal := fun m ρ _ =>
  (θ_run Cert.ReferenceIdeal.defs _ _).mono (fun _ h c => (h c).2) (Cert.HeadRef.run m ρ)

theorem preserves : Cert.preserves_Kernel_KernelIdeal := trivial

/-- From memories that agree on the arguments both programs end with the result array at the logits of those arguments. -/
theorem algebraic : Cert.algebraic_KernelIdeal_ReferenceIdeal := by
  intro m ρ m' ρ' _ hagree
  refine ⟨fun c => Cert.HeadSpec.logits (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.HeadKernel.run m ρ, ?_⟩
  refine (θ_run Cert.ReferenceIdeal.defs _ _).mono (fun _ h c => ⟨(h c).1.trans ?_, (h c).2⟩) (Cert.HeadRef.run m' ρ')
  rw [(hagree c).1, (hagree c).2.1, (hagree c).2.2]

end Claims

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
